-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel

variable [Facts]

def fn {F : FTy → Type} [FloatOps F] (main_arg0 : FVec F S256x3x224x224 .f32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  main_v3
-- ==== Kernel.lean ====
abbrev S256x3x224x224 : Shape := ⟨4, ![256, 3, 224, 224]⟩
abbrev S1x3x1x1 : Shape := ⟨4, ![1, 3, 1, 1]⟩
abbrev S256x3x192x192 : Shape := ⟨4, ![256, 3, 192, 192]⟩
abbrev S8x3x192x192 : Shape := ⟨4, ![8, 3, 192, 192]⟩
abbrev S8x192x192 : Shape := ⟨3, ![8, 192, 192]⟩
abbrev S8x1x192x192 : Shape := ⟨4, ![8, 1, 192, 192]⟩

abbrev nBuf : Space → Nat
  | .hbm => 7
  | .vmem => 7
  | .smem => 0
  | _ => 0

abbrev bufTy : (tb : Table) → Fin (tcTables nBuf tb) → BufTy
  | .hbm, ⟨0, _⟩ => ⟨S256x3x224x224, .f32⟩
  | .hbm, ⟨1, _⟩ => ⟨S1x3x1x1, .f32⟩
  | .hbm, ⟨2, _⟩ => ⟨S1x3x1x1, .f32⟩
  | .hbm, ⟨3, _⟩ => ⟨S1x3x1x1, .f32⟩
  | .hbm, ⟨4, _⟩ => ⟨S256x3x192x192, .f32⟩
  | .hbm, ⟨5, _⟩ => ⟨S256x3x192x192, .f32⟩
  | .hbm, ⟨6, _⟩ => ⟨S256x3x192x192, .f32⟩
  | .local _ .vmem, ⟨0, _⟩ => ⟨S8x3x192x192, .f32⟩
  | .local _ .vmem, ⟨1, _⟩ => ⟨S8x3x192x192, .f32⟩
  | .local _ .vmem, ⟨2, _⟩ => ⟨S1x3x1x1, .f32⟩
  | .local _ .vmem, ⟨3, _⟩ => ⟨S1x3x1x1, .f32⟩
  | .local _ .vmem, ⟨4, _⟩ => ⟨S1x3x1x1, .f32⟩
  | .local _ .vmem, ⟨5, _⟩ => ⟨S8x3x192x192, .f32⟩
  | .local _ .vmem, ⟨6, _⟩ => ⟨S8x3x192x192, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x3x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x3x192x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S256x3x224x224_S256x3x192x192_0_0_8_12 : S256x3x224x224.Slices ![0, 0, 8, 12] S256x3x192x192
  inb_S8x3x192x192_S8x3x192x192_0_0_0_0 : ∀ a, (![0, 0, 0, 0] : Fin 4 → Nat) a + S8x3x192x192.size a ≤ S8x3x192x192.size a
  h_S8x3x192x192 : 0 < S8x3x192x192.numel
  shapeCasts_S8x3x192x192_S8x3x192x192 : S8x3x192x192.ShapeCasts S8x3x192x192
  inb_S1x3x1x1_S1x3x1x1_0_0_0_0 : ∀ a, (![0, 0, 0, 0] : Fin 4 → Nat) a + S1x3x1x1.size a ≤ S1x3x1x1.size a
  h_S1x3x1x1 : 0 < S1x3x1x1.numel
  broadcasts_S1x3x1x1_S8x3x192x192 : S1x3x1x1.Broadcasts S8x3x192x192
  reduces_S8x3x192x192_S8x192x192 : S8x3x192x192.Reduces [1] S8x192x192
  shapeCasts_S8x192x192_S8x1x192x192 : S8x192x192.ShapeCasts S8x1x192x192
  broadcasts_S8x1x192x192_S8x3x192x192 : S8x1x192x192.Broadcasts S8x3x192x192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x192x192.size a ≤ S256x3x192x192.size a
  hwx0_0 : ∀ i : grid0.Coords, EltTy.bits .f32 = 32 ∨ (Rect.block (s := S256x3x192x192) S8x3x192x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3x1x1.size a ≤ S1x3x1x1.size a
  hwx0_1 : ∀ i : grid0.Coords, EltTy.bits .f32 = 32 ∨ (Rect.block (s := S1x3x1x1) S1x3x1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3x1x1.size a ≤ S1x3x1x1.size a
  hwx0_2 : ∀ i : grid0.Coords, EltTy.bits .f32 = 32 ∨ (Rect.block (s := S1x3x1x1) S1x3x1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3x1x1.size a ≤ S1x3x1x1.size a
  hwx0_3 : ∀ i : grid0.Coords, EltTy.bits .f32 = 32 ∨ (Rect.block (s := S1x3x1x1) S1x3x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x3x192x192.size a ≤ S256x3x192x192.size a
  hwx0_4 : ∀ i : grid0.Coords, EltTy.bits .f32 = 32 ∨ (Rect.block (s := S256x3x192x192) S8x3x192x192.size (cc0_transform_4 i) (hinb0_4 i)).WholeWords (EltTy.packing .f32)

variable [Facts₀]

abbrev win0_0 : Pipeline.Window sig grid0 :=
  Pipeline.Window.ofSpec (Memref.whole main_v1) S8x3x192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S1x3x1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S1x3x1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_cst_1) S1x3x1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x3x192x192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S1x3x1x1 : Shape := ⟨4, ![1, 3, 1, 1]⟩
abbrev S256x3x192x192 : Shape := ⟨4, ![256, 3, 192, 192]⟩
abbrev S_ : Shape := ⟨0, ![]⟩
abbrev S256x192x192 : Shape := ⟨3, ![256, 192, 192]⟩
abbrev S256x1x192x192 : Shape := ⟨4, ![256, 1, 192, 192]⟩

abbrev nBuf : Space → Nat
  | .hbm => 43
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S1x3x1x1, .f32⟩
  | .hbm, ⟨2, _⟩ => ⟨S1x3x1x1, .f32⟩
  | .hbm, ⟨3, _⟩ => ⟨S1x3x1x1, .f32⟩
  | .hbm, ⟨4, _⟩ => ⟨S256x3x192x192, .f32⟩
  | .hbm, ⟨5, _⟩ => ⟨S256x3x192x192, .f32⟩
  | .hbm, ⟨6, _⟩ => ⟨S_, .f32⟩
  | .hbm, ⟨7, _⟩ => ⟨S256x3x192x192, .f32⟩
  | .hbm, ⟨8, _⟩ => ⟨S256x3x192x192, .f32⟩
  | .hbm, ⟨9, _⟩ => ⟨S_, .f32⟩
  | .hbm, ⟨10, _⟩ => ⟨S256x3x192x192, .f32⟩
  | .hbm, ⟨11, _⟩ => ⟨S256x3x192x192, .f32⟩
  | .hbm, ⟨12, _⟩ => ⟨S_, .f32⟩
  | .hbm, ⟨13, _⟩ => ⟨S256x3x192x192, .f32⟩
  | .hbm, ⟨14, _⟩ => ⟨S256x3x192x192, .f32⟩
  | .hbm, ⟨15, _⟩ => ⟨S_, .f32⟩
  | .hbm, ⟨16, _⟩ => ⟨S256x3x192x192, .f32⟩
  | .hbm, ⟨17, _⟩ => ⟨S256x3x192x192, .f32⟩
  | .hbm, ⟨18, _⟩ => ⟨S256x3x192x192, .f32⟩
  | .hbm, ⟨19, _⟩ => ⟨S256x3x192x192, .f32⟩
  | .hbm, ⟨20, _⟩ => ⟨S_, .f32⟩
  | .hbm, ⟨21, _⟩ => ⟨S256x192x192, .f32⟩
  | .hbm, ⟨22, _⟩ => ⟨S256x1x192x192, .f32⟩
  | .hbm, ⟨23, _⟩ => ⟨S_, .f32⟩
  | .hbm, ⟨24, _⟩ => ⟨S256x3x192x192, .f32⟩
  | .hbm, ⟨25, _⟩ => ⟨S256x3x192x192, .f32⟩
  | .hbm, ⟨26, _⟩ => ⟨S_, .f32⟩
  | .hbm, ⟨27, _⟩ => ⟨S256x1x192x192, .f32⟩
  | .hbm, ⟨28, _⟩ => ⟨S256x1x192x192, .f32⟩
  | .hbm, ⟨29, _⟩ => ⟨S256x3x192x192, .f32⟩
  | .hbm, ⟨30, _⟩ => ⟨S256x3x192x192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S256x3x192x192, .f32⟩
  | .hbm, ⟨35, _⟩ => ⟨S256x3x192x192, .f32⟩
  | .hbm, ⟨36, _⟩ => ⟨S_, .f32⟩
  | .hbm, ⟨37, _⟩ => ⟨S256x3x192x192, .f32⟩
  | .hbm, ⟨38, _⟩ => ⟨S256x3x192x192, .f32⟩
  | .hbm, ⟨39, _⟩ => ⟨S256x3x192x192, .f32⟩
  | .hbm, ⟨40, _⟩ => ⟨S256x3x192x192, .f32⟩
  | .hbm, ⟨41, _⟩ => ⟨S256x3x192x192, .f32⟩
  | .hbm, ⟨42, _⟩ => ⟨S256x3x192x192, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_cst_2 : Ref sig .tc := ⟨.hbm, 6, rfl⟩
abbrev main_v2 : Ref sig .tc := ⟨.hbm, 7, rfl⟩
abbrev main_v3 : Ref sig .tc := ⟨.hbm, 8, rfl⟩
abbrev main_cst_3 : Ref sig .tc := ⟨.hbm, 9, rfl⟩
abbrev main_v4 : Ref sig .tc := ⟨.hbm, 10, rfl⟩
abbrev main_v5 : Ref sig .tc := ⟨.hbm, 11, rfl⟩
abbrev main_cst_4 : Ref sig .tc := ⟨.hbm, 12, rfl⟩
abbrev main_v6 : Ref sig .tc := ⟨.hbm, 13, rfl⟩
abbrev main_v7 : Ref sig .tc := ⟨.hbm, 14, rfl⟩
abbrev main_cst_5 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_6 : Ref sig .tc := ⟨.hbm, 20, rfl⟩
abbrev main_v12 : Ref sig .tc := ⟨.hbm, 21, rfl⟩
abbrev main_v13 : Ref sig .tc := ⟨.hbm, 22, rfl⟩
abbrev main_cst_7 : Ref sig .tc := ⟨.hbm, 23, rfl⟩
abbrev main_v14 : Ref sig .tc := ⟨.hbm, 24, rfl⟩
abbrev main_v15 : Ref sig .tc := ⟨.hbm, 25, rfl⟩
abbrev main_cst_8 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_9 : Ref sig .tc := ⟨.hbm, 31, rfl⟩
abbrev main_cst_10 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]

class Facts₀ : Prop where
  slices_S256x3x224x224_S256x3x192x192_0_0_8_12 : S256x3x224x224.Slices ![0, 0, 8, 12] S256x3x192x192
  bcast_S_S256x3x192x192 : S_.BroadcastsInDim S256x3x192x192 (![] : Fin 0 → Fin S256x3x192x192.rank)
  bcast_S1x3x1x1_S256x3x192x192_0_1_2_3 : S1x3x1x1.BroadcastsInDim S256x3x192x192 (![0, 1, 2, 3] : Fin 4 → Fin S256x3x192x192.rank)
  reducesTo_S256x3x192x192_S256x192x192_d1 : S256x3x192x192.ReducesTo [1] S256x192x192
  h_S_ : 0 < S_.numel
  bcast_S256x192x192_S256x1x192x192_0_2_3 : S256x192x192.BroadcastsInDim S256x1x192x192 (![0, 2, 3] : Fin 3 → Fin S256x1x192x192.rank)
  bcast_S_S256x1x192x192 : S_.BroadcastsInDim S256x1x192x192 (![] : Fin 0 → Fin S256x1x192x192.rank)
  bcast_S256x1x192x192_S256x3x192x192_0_1_2_3 : S256x1x192x192.BroadcastsInDim S256x3x192x192 (![0, 1, 2, 3] : Fin 4 → Fin S256x3x192x192.rank)

variable [Facts₀]

class Facts : Prop extends Facts₀ where

variable [Facts]
-- ==== Proof.Spec.lean ====
/-
  The augmentation as ONE function of the cropped and flipped image, index by index, over the extended reals.

  An image batch `X` has shape [256, 3, 192, 192] (sample, channel, row, column). Every output value depends on the
  three channel values at its own sample, row and column only:
    tone x    = (x · 1.1 − 0.5) · 0.9 + 0.5                    (brightness, then contrast about one half)
    gray      = Σ_k tone (x_k) · luma_k                        (the luma-weighted sum over the three channels)
    blend_c   = 1.2 · tone (x_c) + (−0.2) · gray               (saturation)
    out_c     = (min 1 (max 0 blend_c) − mean_c) / std_c       (clamp to [0, 1], then normalize)
  Every constant is the exact value of the float32 word both programs carry; the words are never evaluated, since the
  same word stands on both sides.
-/
import Idealize.ShloMosaic.PureOps.Ideal
import Idealize.ShloMosaic.Lib.ValueIdx

noncomputable section

namespace Cert.Augment

open Idealize.ShloMosaic Idealize.ShloMosaic.ValueIdx

/-- The image batch after crop and flip: [sample, channel, row, column]. -/
abbrev Img : Shape := ⟨4, ![256, 3, 192, 192]⟩
/-- One grid point's slab of it: eight samples. -/
abbrev Blk : Shape := ⟨4, ![8, 3, 192, 192]⟩
/-- A per-channel table (luma weights, means, deviations). -/
abbrev Tab : Shape := ⟨4, ![1, 3, 1, 1]⟩

/-- The table entry of channel `k`. -/
abbrev chan (k : Fin 3) : Tab.Idx := ix4 (0 : Fin 1) k (0 : Fin 1) (0 : Fin 1)

/-- Brightness then contrast on one value: `(x · 1.1 − 0.5) · 0.9 + 0.5`. -/
def tone (x : EReal) : EReal :=
  (x * Ideal.ofBits .f32 0x3F8CCCCD#32 - Ideal.ofBits .f32 0x3F000000#32) * Ideal.ofBits .f32 0x3F666666#32
    + Ideal.ofBits .f32 0x3F000000#32

/-- One output value of channel `c` once the gray value `s` at its position is known: the saturation blend of the
    channel's own toned value with `s`, clamped to [0, 1], minus the channel's mean `m c`, over its deviation `d c`. -/
def pixelOf (m d p : Fin 3 → EReal) (c : Fin 3) (s : EReal) : EReal :=
  Ideal.div
    (min (Ideal.ofBits .f32 0x3F800000#32)
        (max (Ideal.ofBits .f32 0x00000000#32)
          (Ideal.ofBits .f32 0x3F99999A#32 * tone (p c) + Ideal.ofBits .f32 0xBE4CCCCD#32 * s))
      - m c)
    (d c)

/-- One output value of channel `c`, from the three channel values `p` at its position and the per-channel
    luma weights `l`, means `m` and deviations `d`: the gray value is the luma-weighted sum of the toned channels. -/
def pixel (l m d p : Fin 3 → EReal) (c : Fin 3) : EReal :=
  pixelOf m d p c (∑ k : Fin 3, tone (p k) * l k)

/-- The whole result array: `pixel` at every index, the three channel values read at the index's own sample,
    row and column. -/
def G (X : Img.Idx → EReal) (L M D : Tab.Idx → EReal) : Img.Idx → EReal := fun i =>
  pixel (fun k => L (chan k)) (fun k => M (chan k)) (fun k => D (chan k))
    (fun k => X (ix4 (i 0) k (i 2) (i 3))) (i 1)

end Cert.Augment

end
-- ==== Proof.ChannelSum.lean ====
/-
  The sum over the channel axis, read at an index, on each side.

  Both programs add the three channels' values at one (sample, row, column). The vector unit's reduction over axis 1 of
  an [8, 3, 192, 192] slab, read at (b, h, w), is the plain sum over k of the slab at (b, k, h, w); the host's reduction
  over axis 1 of the [256, 3, 192, 192] batch, read at (n, h, w), is its initial value plus the same sum at (n, k, h, w).
  Over the extended reals a sum of three terms has no order, so nothing else is to be said about either.
-/
import Idealize.ShloMosaic.PureOps.Ideal.Laws
import Idealize.ShloMosaic.Lib.IdealHost
import Idealize.ShloMosaic.Lib.ValueIdx
import proofs.«143802_j47399259079062_1_alg».proof.Proof.Spec

noncomputable section

namespace Cert.Augment

open Idealize.ShloMosaic Idealize.ShloMosaic.ValueIdx

/-- A slab with the channel axis summed away: [8, 192, 192]. -/
abbrev Blk3 : Shape := ⟨3, ![8, 192, 192]⟩
/-- The batch with the channel axis summed away: [256, 192, 192]. -/
abbrev Img3 : Shape := ⟨3, ![256, 192, 192]⟩

/-- Inserting channel `k` into (b, h, w) gives (b, k, h, w). -/
theorem lift_blk (hr : Blk.Reduces [1] Blk3) (b : Fin 8) (h w : Fin 192) (k : Fin 3) :
    hr.lift (ix3 b h w) k = ix4 b k h w := by
  funext a
  apply Fin.ext
  match a with
  | ⟨0, _⟩ => rfl
  | ⟨1, _⟩ => rfl
  | ⟨2, _⟩ => rfl
  | ⟨3, _⟩ => rfl

/-- Inserting channel `k` into (n, h, w) gives (n, k, h, w). -/
theorem lift_img (hr : Img.Reduces [1] Img3) (n : Fin 256) (h w : Fin 192) (k : Fin 3) :
    hr.lift (ix3 n h w) k = ix4 n k h w := by
  funext a
  apply Fin.ext
  match a with
  | ⟨0, _⟩ => rfl
  | ⟨1, _⟩ => rfl
  | ⟨2, _⟩ => rfl
  | ⟨3, _⟩ => rfl

/-- The vector unit's sum over the channel axis of a slab, at (b, h, w): the sum over `k` of the slab at (b, k, h, w). -/
theorem slab_channel_sum (v : FVec Ideal Blk .f32) (hr : Blk.Reduces [1] Blk3) (hφ : FKind.Formats .f32)
    (hacc : (0x00000000#32 : BitVec 32) = FKind.add.neutral .f32 hφ) (b : Fin 8) (h w : Fin 192) :
    multiReduction .add [1] Blk3 v 0x00000000#32 hr hφ hacc (ix3 b h w) = ∑ k : Fin 3, v (ix4 b k h w) :=
  (Ideal.multiReduction_add_single v _ hr hφ hacc (ix3 b h w)).trans
    (Finset.sum_congr rfl fun k _ => congrArg v (lift_blk hr b h w k))

/-- The host's sum over the channel axis of the batch from the initial value zero, at (n, h, w): the sum over `k` of
    the batch at (n, k, h, w). -/
theorem batch_channel_sum (v : FVec Ideal Img .f32) (hr' : Img.ReducesTo [1] Img3) (hr : Img.Reduces [1] Img3)
    (hu : 0 < (⟨0, ![]⟩ : Shape).numel) (n : Fin 256) (h w : Fin 192) :
    Host.reduceAdd v (constant (F := Ideal) ⟨0, ![]⟩ .f32 0x00000000#32) hr' hu (ix3 n h w)
      = ∑ k : Fin 3, v (ix4 n k h w) := by
  refine (hostReduceAdd_apply v _ hr' hu (ix3 n h w)).trans ?_
  refine (Ideal.hostReduceAdd_single hr' hr v _ (ix3 n h w)).trans ?_
  rw [constant_apply, Ideal.ofBits_zero_f32, zero_add]
  exact Finset.sum_congr rfl fun k _ => congrArg v (lift_img hr n h w k)

end Cert.Augment

end
-- ==== Proof.KernelBlock.lean ====
/-
  What one grid point of the kernel leaves in its output slab, and what it writes back.

  The body loads a slab of eight samples and the three per-channel tables and stores one value per slab index.
  Read at (b, c, h, w) that value is `pixel` of the slab's three channel values at (b, ·, h, w): the body's pointwise
  operations are the extended reals' own, its broadcasts of the tables read the table entry of the index's channel,
  and its reduction over the channel axis is the plain sum (ChannelSum). Grid point `t` holds samples 8t … 8t + 7 of the
  cropped and flipped batch and the whole of each table, so what it writes back is slab `t` of `G`.
-/
import proofs.«143802_j47399259079062_1_alg».proof.Proof.Gen.KernelIdeal.Value
import proofs.«143802_j47399259079062_1_alg».proof.Proof.Spec
import proofs.«143802_j47399259079062_1_alg».proof.Proof.ChannelSum
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Slab

open Cert.KernelIdeal Cert.KernelIdeal.Gen Cert.Augment

/-! ## The body's value at a slab index -/

/-- The slab's toned values times the luma weights, channel by channel: what the body sums over the channel axis. -/
abbrev weighted (P0 : FVec Ideal S8x3x192x192 .f32) (P1 : FVec Ideal S1x3x1x1 .f32) : FVec Ideal S8x3x192x192 .f32 :=
  mulf (addf (mulf (subf (mulf (shapeCast S8x3x192x192 P0 shapeCasts_S8x3x192x192_S8x3x192x192)
      (broadcast S8x3x192x192 (Scalar.ofBits .f32 0x3F8CCCCD#32))) (broadcast S8x3x192x192 (Scalar.ofBits .f32 0x3F000000#32)))
      (broadcast S8x3x192x192 (Scalar.ofBits .f32 0x3F666666#32))) (broadcast S8x3x192x192 (Scalar.ofBits .f32 0x3F000000#32)))
    (broadcastTo S8x3x192x192 P1 broadcasts_S1x3x1x1_S8x3x192x192)

/-- At (b, k, h, w) it is the toned slab value there times the luma weight of channel `k`: the slab's cast to its
    own shape is the slab, and the table's broadcast reads the table at the index's channel. -/
theorem weighted_apply (P0 : FVec Ideal S8x3x192x192 .f32) (P1 : FVec Ideal S1x3x1x1 .f32)
    (b : Fin 8) (k : Fin 3) (h w : Fin 192) :
    weighted P0 P1 (ix4 b k h w) = tone (P0 (ix4 b k h w)) * P1 (chan k) := by
  have hc : shapeCast S8x3x192x192 P0 shapeCasts_S8x3x192x192_S8x3x192x192 = P0 := shapeCast_self P0 _
  have hb : broadcastTo S8x3x192x192 P1 broadcasts_S1x3x1x1_S8x3x192x192 (ix4 b k h w) = P1 (chan k) := by
    refine broadcastTo_apply P1 _ (ix4 b k h w) (chan k) fun a => ?_
    match a with
    | ⟨0, _⟩ => rfl
    | ⟨1, _⟩ => rfl
    | ⟨2, _⟩ => rfl
    | ⟨3, _⟩ => rfl
  show tone (shapeCast S8x3x192x192 P0 shapeCasts_S8x3x192x192_S8x3x192x192 (ix4 b k h w))
      * broadcastTo S8x3x192x192 P1 broadcasts_S1x3x1x1_S8x3x192x192 (ix4 b k h w) = _
  rw [hc, hb]

/-- The block function the generated value leg reads the body's store as, at (b, c, h, w): `pixel` of the slab's
    channel values at (b, ·, h, w), with the tables read at the index's channel. `P1` is the luma table (it enters
    the sum), `P2` the means, `P3` the deviations. -/
theorem blockFn_apply (P0 : FVec Ideal S8x3x192x192 .f32) (P1 P2 P3 : FVec Ideal S1x3x1x1 .f32)
    (b : Fin 8) (c : Fin 3) (h w : Fin 192) :
    Cert.KernelIdeal.Value.E4 (F := Ideal) P0 P1 P2 P3 (ix4 b c h w)
      = pixel (fun k => P1 (chan k)) (fun k => P2 (chan k)) (fun k => P3 (chan k)) (fun k => P0 (ix4 b k h w)) c := by
  have i0 : Cert.KernelIdeal.Value.ix4_0 (ix4 b c h w) = ix4 b c h w := by
    funext a; apply Fin.ext
    match a with | ⟨0, _⟩ => rfl | ⟨1, _⟩ => rfl | ⟨2, _⟩ => rfl | ⟨3, _⟩ => rfl
  have i1 : Cert.KernelIdeal.Value.ix4_1 (ix4 b c h w) = ix3 b h w := by
    funext a; apply Fin.ext
    match a with | ⟨0, _⟩ => rfl | ⟨1, _⟩ => rfl | ⟨2, _⟩ => rfl
  have i2 : Cert.KernelIdeal.Value.ix4_2 (ix4 b c h w) = chan c := by
    funext a; apply Fin.ext
    match a with | ⟨0, _⟩ => rfl | ⟨1, _⟩ => rfl | ⟨2, _⟩ => rfl | ⟨3, _⟩ => rfl
  have i3 : Cert.KernelIdeal.Value.ix4_3 (ix4 b c h w) = chan c := by
    funext a; apply Fin.ext
    match a with | ⟨0, _⟩ => rfl | ⟨1, _⟩ => rfl | ⟨2, _⟩ => rfl | ⟨3, _⟩ => rfl
  have hsum : multiReduction .add [1] S8x192x192 (weighted P0 P1) 0x00000000#32 reduces_S8x3x192x192_S8x192x192 (.inl rfl) rfl
      (ix3 b h w) = ∑ k : Fin 3, tone (P0 (ix4 b k h w)) * P1 (chan k) := by
    refine (slab_channel_sum (weighted P0 P1) _ _ _ b h w).trans (Finset.sum_congr rfl fun k _ => ?_)
    exact weighted_apply P0 P1 b k h w
  have hhead : Cert.KernelIdeal.Value.E4 (F := Ideal) P0 P1 P2 P3 (ix4 b c h w)
      = pixelOf (fun k => P2 (chan k)) (fun k => P3 (chan k)) (fun k => P0 (ix4 b k h w)) c
          (multiReduction .add [1] S8x192x192 (weighted P0 P1) 0x00000000#32 reduces_S8x3x192x192_S8x192x192 (.inl rfl) rfl
            (ix3 b h w)) := by
    dsimp only [Cert.KernelIdeal.Value.E4]
    rw [i0, i1, i2, i3]
    rfl
  rw [hhead, hsum]
  rfl

theorem hz4 : (![0, 0, 0, 0] : Fin 4 → Nat) = fun _ => 0 := funext fun a => by fin_cases a <;> rfl

/-- What the body leaves in the output slab, as a function of what its four loads read — the sample slab `x0`, the
    means `x1`, the deviations `x2`, the luma weights `x3` —: `pixel` at every slab index. -/
theorem out_apply (x0 : Vec Ideal S8x3x192x192 .f32) (x1 x2 x3 : Vec Ideal S1x3x1x1 .f32)
    (b : Fin 8) (c : Fin 3) (h w : Fin 192) :
    out0_4 (F := Ideal) x0 x1 x2 x3 (ix4 b c h w)
      = pixel (fun k => x3 (chan k)) (fun k => x1 (chan k)) (fun k => x2 (chan k)) (fun k => x0 (ix4 b k h w)) c := by
  unfold out0_4
  simp only [View.ld_unit_zero (S := S8x3x192x192) hz4, View.ld_unit_zero (S := S1x3x1x1) hz4]
  rw [Cert.KernelIdeal.Value.canon4_eq]
  exact blockFn_apply x0 x3 x1 x2 b c h w

end Cert.KernelIdeal.Slab

end
-- ==== Proof.KernelRun.lean ====
/-
  From slabs to the whole array, and the kernel's run.

  The grid has 32 points; point `t` stages samples 8t … 8t + 7 of the cropped and flipped batch (all channels, rows and
  columns) and the whole of each table, and writes its output slab back to the same samples of the result. So what
  point `t` writes back is slab `t` of `G` of the arrays the region finds, every sample `n` lies in the slab of
  point `n / 8`, and the result array ends as `G` of them. The region finds the batch as the flip of the crop of the
  argument and the tables as the program's literal tables: those are the host operations before it.
-/
import proofs.«143802_j47399259079062_1_alg».proof.Proof.Gen.KernelIdeal.Value
import proofs.«143802_j47399259079062_1_alg».proof.Proof.KernelBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Slab

open Cert.KernelIdeal Cert.KernelIdeal.Gen Cert.Augment

/-! ## One slab, over plain arrays -/

/-- If the sample slab `x0` is the batch `X` read through an embedding `e` of slab indices whose sample, row and
    column coordinates do not depend on the slab index's channel and whose channel is the slab index's, and the three
    loaded tables are the tables `M`, `D`, `L`, then the body's output at a slab index is `G` at the embedded index. -/
theorem slab_eq (x0 : Vec Ideal S8x3x192x192 .f32) (x1 x2 x3 : Vec Ideal S1x3x1x1 .f32)
    (X : Img.Idx → EReal) (L M D : Tab.Idx → EReal) (e : S8x3x192x192.Idx → Img.Idx)
    (hx0 : ∀ y, x0 y = X (e y)) (hx1 : x1 = M) (hx2 : x2 = D) (hx3 : x3 = L)
    (he : ∀ y y' : S8x3x192x192.Idx, (y 0).val = (y' 0).val → (y 2).val = (y' 2).val → (y 3).val = (y' 3).val →
      ((e y) 0).val = ((e y') 0).val ∧ ((e y) 2).val = ((e y') 2).val ∧ ((e y) 3).val = ((e y') 3).val)
    (he1 : ∀ y : S8x3x192x192.Idx, ((e y) 1).val = (y 1).val) (y : S8x3x192x192.Idx) :
    out0_4 (F := Ideal) x0 x1 x2 x3 y = G X L M D (e y) := by
  subst hx1 hx2 hx3
  obtain ⟨b, c, h, w, rfl⟩ : ∃ (b : Fin 8) (c : Fin 3) (h w : Fin 192), y = ix4 b c h w :=
    ⟨y 0, y 1, y 2, y 3, eq_ix4 y⟩
  rw [out_apply x0 x1 x2 x3 b c h w]
  have hc : (e (ix4 b c h w)) 1 = c := Fin.ext (he1 (ix4 b c h w))
  have hp : (fun k : Fin 3 => X (ix4 ((e (ix4 b c h w)) 0) k ((e (ix4 b c h w)) 2) ((e (ix4 b c h w)) 3)))
      = fun k => x0 (ix4 b k h w) := by
    funext k
    rw [hx0]
    refine congrArg X (funext fun a => Fin.ext ?_)
    obtain ⟨g0, g2, g3⟩ := he (ix4 b k h w) (ix4 b c h w) rfl rfl rfl
    match a with
    | ⟨0, _⟩ => exact g0.symm
    | ⟨1, _⟩ => exact (he1 (ix4 b k h w)).symm
    | ⟨2, _⟩ => exact g2.symm
    | ⟨3, _⟩ => exact g3.symm
  show _ = pixel _ _ _ (fun k => X (ix4 ((e (ix4 b c h w)) 0) k ((e (ix4 b c h w)) 2) ((e (ix4 b c h w)) 3)))
      ((e (ix4 b c h w)) 1)
  rw [hp, hc]

/-! ## The index maps over the grid -/

/-- The printed index maps, decided over the 32 points: the sample slab and the output slab sit at sample block `t`
    and at block zero on the other axes; each table's one block is at zero. -/
theorem idx_facts : ∀ t : Fin cfg0.N,
    win0_0.index t (0 : Fin 4) = t.val ∧ win0_0.index t (1 : Fin 4) = 0 ∧ win0_0.index t (2 : Fin 4) = 0
      ∧ win0_0.index t (3 : Fin 4) = 0
    ∧ win0_4.index t (0 : Fin 4) = t.val ∧ win0_4.index t (1 : Fin 4) = 0 ∧ win0_4.index t (2 : Fin 4) = 0
      ∧ win0_4.index t (3 : Fin 4) = 0
    ∧ (∀ a : Fin 4, win0_1.index t a = 0) ∧ (∀ a : Fin 4, win0_2.index t a = 0) ∧ (∀ a : Fin 4, win0_3.index t a = 0) :=
  (by decide +kernel : ∀ t : Fin grid0.N, _)

variable (m : (ℓ : Loc nD τ sig) → Buf (Elt Ideal) ℓ) (ρ : Dev nD → PrngReg)

/-- The result array as a function of the arrays the region finds: the batch, the luma weights, the means, the
    deviations. -/
abbrev result (c : Dev nD) : Img.Idx → EReal :=
  G (V m c main_v1) (V m c main_cst_1) (V m c main_cst) (V m c main_cst_0)

/-! ## What a point writes back -/

/-- WHAT POINT `t` WRITES BACK is slab `t` of `result`. -/
theorem flushed_eq (c : Dev nD) (t : Fin cfg0.N) :
    (dats m 0 c).flushed 4 t = ((cfg0.win 4).blk t).view.read (Elt Ideal) (result m c) := by
  rw [Cert.KernelIdeal.Value.flushed4]
  obtain ⟨a0, a1, a2, a3, o0, o1, o2, o3, z1, z2, z3⟩ := idx_facts t
  funext j
  refine slab_eq (iblk m c 0 t) (iblk m c 1 t) (iblk m c 2 t) (iblk m c 3 t)
    (V m c main_v1) (V m c main_cst_1) (V m c main_cst) (V m c main_cst_0) (((cfg0.win 4).blk t).view.emb)
    (fun y => ?_) (funext fun y => ?_) (funext fun y => ?_) (funext fun y => ?_) (fun y y' h0 h2 h3 => ?_) (fun y => ?_) j
  · -- the sample slab: window 0's block is read where window 4's block is written
    show V m c main_v1 (((cfg0.win 0).blk t).view.emb y) = V m c main_v1 (((cfg0.win 4).blk t).view.emb y)
    refine congrArg (V m c main_v1) (funext fun a => Fin.ext ?_)
    match a with
    | ⟨0, _⟩ => show win0_0.index t (0 : Fin 4) * 8 + 1 * (y 0).val = win0_4.index t (0 : Fin 4) * 8 + 1 * (y 0).val; omega
    | ⟨1, _⟩ => show win0_0.index t (1 : Fin 4) * 3 + 1 * (y 1).val = win0_4.index t (1 : Fin 4) * 3 + 1 * (y 1).val; omega
    | ⟨2, _⟩ => show win0_0.index t (2 : Fin 4) * 192 + 1 * (y 2).val = win0_4.index t (2 : Fin 4) * 192 + 1 * (y 2).val; omega
    | ⟨3, _⟩ => show win0_0.index t (3 : Fin 4) * 192 + 1 * (y 3).val = win0_4.index t (3 : Fin 4) * 192 + 1 * (y 3).val; omega
  · -- the means: the table's one block is the table
    show V m c main_cst (((cfg0.win 1).blk t).view.emb y) = V m c main_cst y
    refine congrArg (V m c main_cst) (funext fun a => Fin.ext ?_)
    have z := z1
    match a with
    | ⟨0, _⟩ => show win0_1.index t (0 : Fin 4) * 1 + 1 * (y 0).val = (y 0).val; rw [z 0]; omega
    | ⟨1, _⟩ => show win0_1.index t (1 : Fin 4) * 3 + 1 * (y 1).val = (y 1).val; rw [z 1]; omega
    | ⟨2, _⟩ => show win0_1.index t (2 : Fin 4) * 1 + 1 * (y 2).val = (y 2).val; rw [z 2]; omega
    | ⟨3, _⟩ => show win0_1.index t (3 : Fin 4) * 1 + 1 * (y 3).val = (y 3).val; rw [z 3]; omega
  · -- the deviations
    show V m c main_cst_0 (((cfg0.win 2).blk t).view.emb y) = V m c main_cst_0 y
    refine congrArg (V m c main_cst_0) (funext fun a => Fin.ext ?_)
    have z := z2
    match a with
    | ⟨0, _⟩ => show win0_2.index t (0 : Fin 4) * 1 + 1 * (y 0).val = (y 0).val; rw [z 0]; omega
    | ⟨1, _⟩ => show win0_2.index t (1 : Fin 4) * 3 + 1 * (y 1).val = (y 1).val; rw [z 1]; omega
    | ⟨2, _⟩ => show win0_2.index t (2 : Fin 4) * 1 + 1 * (y 2).val = (y 2).val; rw [z 2]; omega
    | ⟨3, _⟩ => show win0_2.index t (3 : Fin 4) * 1 + 1 * (y 3).val = (y 3).val; rw [z 3]; omega
  · -- the luma weights
    show V m c main_cst_1 (((cfg0.win 3).blk t).view.emb y) = V m c main_cst_1 y
    refine congrArg (V m c main_cst_1) (funext fun a => Fin.ext ?_)
    have z := z3
    match a with
    | ⟨0, _⟩ => show win0_3.index t (0 : Fin 4) * 1 + 1 * (y 0).val = (y 0).val; rw [z 0]; omega
    | ⟨1, _⟩ => show win0_3.index t (1 : Fin 4) * 3 + 1 * (y 1).val = (y 1).val; rw [z 1]; omega
    | ⟨2, _⟩ => show win0_3.index t (2 : Fin 4) * 1 + 1 * (y 2).val = (y 2).val; rw [z 2]; omega
    | ⟨3, _⟩ => show win0_3.index t (3 : Fin 4) * 1 + 1 * (y 3).val = (y 3).val; rw [z 3]; omega
  · -- the sample, row and column of the array index under a slab index do not depend on the slab index's channel
    refine ⟨?_, ?_, ?_⟩
    · show win0_4.index t (0 : Fin 4) * 8 + 1 * (y 0).val = win0_4.index t (0 : Fin 4) * 8 + 1 * (y' 0).val
      rw [h0]
    · show win0_4.index t (2 : Fin 4) * 192 + 1 * (y 2).val = win0_4.index t (2 : Fin 4) * 192 + 1 * (y' 2).val
      rw [h2]
    · show win0_4.index t (3 : Fin 4) * 192 + 1 * (y 3).val = win0_4.index t (3 : Fin 4) * 192 + 1 * (y' 3).val
      rw [h3]
  · -- the channel of the array index is the slab index's
    show win0_4.index t (1 : Fin 4) * 3 + 1 * (y 1).val = (y 1).val
    rw [o1]; omega

/-! ## The cover, and the array after the run -/

/-- An index of the result is in point `t`'s slab iff each coordinate is in the slab's range on its axis. -/
theorem mem_blk (t : Fin cfg0.N) (i : S256x3x192x192.Idx) :
    i ∈ ((cfg0.win 4).blk t).view.set ↔ ∀ a : Fin 4, win0_4.index t a * S8x3x192x192.size a ≤ (i a).val
      ∧ (i a).val < win0_4.index t a * S8x3x192x192.size a + S8x3x192x192.size a := by
  show i ∈ ((View.whole main_v2).slice (win0_4.rect t)).set ↔ _
  rw [View.set_slice_whole, Rect.mem_set_unit]
  exact Iff.rfl

/-- Every index of the result lies in the slab of the point its sample's eighth names. -/
theorem cover (i : S256x3x192x192.Idx) :
    ∃ t : Fin cfg0.N, (cfg0.win 4).flush t = true ∧ i ∈ ((cfg0.win 4).blk t).view.set := by
  have hN : cfg0.N = 32 := N_0
  have h0 : (i 0).val < 256 := (i 0).isLt
  have h1 : (i 1).val < 3 := (i 1).isLt
  have h2 : (i 2).val < 192 := (i 2).isLt
  have h3 : (i 3).val < 192 := (i 3).isLt
  refine ⟨⟨(i 0).val / 8, by rw [hN]; omega⟩, flush0_4 _, ?_⟩
  obtain ⟨-, -, -, -, o0, o1, o2, o3, -, -, -⟩ := idx_facts ⟨(i 0).val / 8, by rw [hN]; omega⟩
  rw [mem_blk]
  intro a
  match a with
  | ⟨0, _⟩ =>
    show win0_4.index _ (0 : Fin 4) * 8 ≤ (i 0).val ∧ (i 0).val < win0_4.index _ (0 : Fin 4) * 8 + 8
    rw [o0]; show (i 0).val / 8 * 8 ≤ (i 0).val ∧ (i 0).val < (i 0).val / 8 * 8 + 8; omega
  | ⟨1, _⟩ =>
    show win0_4.index _ (1 : Fin 4) * 3 ≤ (i 1).val ∧ (i 1).val < win0_4.index _ (1 : Fin 4) * 3 + 3
    rw [o1]; omega
  | ⟨2, _⟩ =>
    show win0_4.index _ (2 : Fin 4) * 192 ≤ (i 2).val ∧ (i 2).val < win0_4.index _ (2 : Fin 4) * 192 + 192
    rw [o2]; omega
  | ⟨3, _⟩ =>
    show win0_4.index _ (3 : Fin 4) * 192 ≤ (i 3).val ∧ (i 3).val < win0_4.index _ (3 : Fin 4) * 192 + 192
    rw [o3]; omega

/-- THE RESULT ARRAY after the run is `result`. -/
theorem final (c : Dev nD) : (dats m 0 c).arrAt 4 cfg0.N = result m c :=
  (dats m 0 c).arrAt_eq_of_cover 4 (result m c) (fun t _ => flushed_eq m c t) cover

/-! ## What the region finds -/

/-- The batch the region finds is the flip of the crop of the argument. -/
theorem V_batch (c : Dev nD) : (V m c main_v1 : S256x3x192x192.Idx → EReal)
    = Host.reverse [3] (extractStridedSlice S256x3x192x192 ![0, 0, 8, 12] (m ((c : Thread nD τ).loc main_arg0))
        slices_S256x3x224x224_S256x3x192x192_0_0_8_12) := by
  dsimp only [Gen.V]
  simp only [Gen.hostOps0, Gen.hostOps0_1, List.flatten_cons, List.flatten_nil, List.append_nil, List.cons_append,
    List.nil_append]
  after_results
  rfl

/-- The tables the region finds are the program's literal tables: means, deviations, luma weights. -/
theorem V_mean (c : Dev nD) : (V m c main_cst : S1x3x1x1.Idx → EReal)
    = fun i => FloatOps.ofBits (F := Ideal) .f32 (lit0 (S1x3x1x1.rowMajor i)) := by
  dsimp only [Gen.V]
  simp only [Gen.hostOps0, Gen.hostOps0_1, List.flatten_cons, List.flatten_nil, List.append_nil, List.cons_append,
    List.nil_append]
  after_results
  rfl

theorem V_std (c : Dev nD) : (V m c main_cst_0 : S1x3x1x1.Idx → EReal)
    = fun i => FloatOps.ofBits (F := Ideal) .f32 (lit1 (S1x3x1x1.rowMajor i)) := by
  dsimp only [Gen.V]
  simp only [Gen.hostOps0, Gen.hostOps0_1, List.flatten_cons, List.flatten_nil, List.append_nil, List.cons_append,
    List.nil_append]
  after_results
  rfl

theorem V_luma (c : Dev nD) : (V m c main_cst_1 : S1x3x1x1.Idx → EReal)
    = fun i => FloatOps.ofBits (F := Ideal) .f32 (lit2 (S1x3x1x1.rowMajor i)) := by
  dsimp only [Gen.V]
  simp only [Gen.hostOps0, Gen.hostOps0_1, List.flatten_cons, List.flatten_nil, List.append_nil, List.cons_append,
    List.nil_append]
  after_results
  rfl

/-! ## The run -/

/-- The kernel's run, read: the result array at `G` of the flipped crop of the argument and the literal tables, the
    argument unchanged. -/
theorem run : θ_run defs (onTc (τ := τ) (main (F := Ideal))) ⟨m, fun _ => 0, ρ⟩ fun r => ∀ c : Dev nD,
      r.2.mem ((c : Thread nD τ).loc main_v2)
        = G (Host.reverse [3] (extractStridedSlice S256x3x192x192 ![0, 0, 8, 12] (m ((c : Thread nD τ).loc main_arg0))
              slices_S256x3x224x224_S256x3x192x192_0_0_8_12))
            (fun i => FloatOps.ofBits (F := Ideal) .f32 (lit2 (S1x3x1x1.rowMajor i)))
            (fun i => FloatOps.ofBits (F := Ideal) .f32 (lit0 (S1x3x1x1.rowMajor i)))
            (fun i => FloatOps.ofBits (F := Ideal) .f32 (lit1 (S1x3x1x1.rowMajor i)))
      ∧ r.2.mem ((c : Thread nD τ).loc main_arg0) = m ((c : Thread nD τ).loc main_arg0) :=
  (θ_run defs _ _).mono (fun r h c => ⟨by
      rw [(h c).1, final m c]
      show G _ _ _ _ = _
      rw [V_batch m c, V_luma m c, V_mean m c, V_std m c], (h c).2⟩)
    (Cert.KernelIdeal.Value.run_blocks m ρ)

end Cert.KernelIdeal.Slab

end
-- ==== Proof.RefRun.lean ====
/-
  The reference's run, read back.

  The reference is a straight line of host operations: three per-channel tables, the crop (a slice of rows 8..199 and
  columns 12..203), the flip (a reversal of the column axis), then the pointwise chain — brightness and contrast, the
  luma-weighted sum over the channel axis, the saturation blend, the clamp (the operations of the clip helper, which the
  compiler inlines at its call), the normalization. Listed in order, run one after the other from the launch memory,
  they leave the result buffer at the chain applied to the cropped and flipped argument, and the argument as it was.
-/
import proofs.«143802_j47399259079062_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The contents of a float32 buffer of each shape the program names. -/
abbrev CArg (F : FTy → Type) : Type := (⟨S256x3x224x224, .f32⟩ : BufTy).Contents (Elt F)
abbrev CImg (F : FTy → Type) : Type := (⟨S256x3x192x192, .f32⟩ : BufTy).Contents (Elt F)
abbrev CTab (F : FTy → Type) : Type := (⟨S1x3x1x1, .f32⟩ : BufTy).Contents (Elt F)
abbrev CSum (F : FTy → Type) : Type := (⟨S256x192x192, .f32⟩ : BufTy).Contents (Elt F)
abbrev CKeep (F : FTy → Type) : Type := (⟨S256x1x192x192, .f32⟩ : BufTy).Contents (Elt F)
abbrev CSc (F : FTy → Type) : Type := (⟨S_, .f32⟩ : BufTy).Contents (Elt F)

/-- @main's 42 operations, in order; the six of the clip helper stand where it is called, over that call's buffers. -/
abbrev ops : List (HloOp τ sig (Elt F)) :=
  [ nullary main_cst (fun i => FloatOps.ofBits .f32 (lit0 (S1x3x1x1.rowMajor i))),
    nullary main_cst_0 (fun i => FloatOps.ofBits .f32 (lit1 (S1x3x1x1.rowMajor i))),
    nullary main_cst_1 (fun i => FloatOps.ofBits .f32 (lit2 (S1x3x1x1.rowMajor i))),
    unary main_arg0 main_v0 ((extractStridedSlice S256x3x192x192 ![0, 0, 8, 12] · slices_S256x3x224x224_S256x3x192x192_0_0_8_12) : CArg F → CImg F),
    unary main_v0 main_v1 (Host.reverse [3] : CImg F → CImg F),
    nullary main_cst_2 (constant S_ .f32 0x3F8CCCCD#32),
    unary main_cst_2 main_v2 (broadcastInDim S256x3x192x192 ![] bcast_S_S256x3x192x192 : CSc F → CImg F),
    binary main_v1 main_v2 main_v3 (mulf : CImg F → CImg F → CImg F),
    nullary main_cst_3 (constant S_ .f32 0x3F000000#32),
    unary main_cst_3 main_v4 (broadcastInDim S256x3x192x192 ![] bcast_S_S256x3x192x192 : CSc F → CImg F),
    binary main_v3 main_v4 main_v5 (subf : CImg F → CImg F → CImg F),
    nullary main_cst_4 (constant S_ .f32 0x3F666666#32),
    unary main_cst_4 main_v6 (broadcastInDim S256x3x192x192 ![] bcast_S_S256x3x192x192 : CSc F → CImg F),
    binary main_v5 main_v6 main_v7 (mulf : CImg F → CImg F → CImg F),
    nullary main_cst_5 (constant S_ .f32 0x3F000000#32),
    unary main_cst_5 main_v8 (broadcastInDim S256x3x192x192 ![] bcast_S_S256x3x192x192 : CSc F → CImg F),
    binary main_v7 main_v8 main_v9 (addf : CImg F → CImg F → CImg F),
    unary main_cst main_v10 (broadcastInDim S256x3x192x192 ![0, 1, 2, 3] bcast_S1x3x1x1_S256x3x192x192_0_1_2_3 : CTab F → CImg F),
    binary main_v9 main_v10 main_v11 (mulf : CImg F → CImg F → CImg F),
    nullary main_cst_6 (constant S_ .f32 0x00000000#32),
    binary main_v11 main_cst_6 main_v12 ((fun x v => Host.reduceAdd x v reducesTo_S256x3x192x192_S256x192x192_d1 h_S_) : CImg F → CSc F → CSum F),
    unary main_v12 main_v13 (broadcastInDim S256x1x192x192 ![0, 2, 3] bcast_S256x192x192_S256x1x192x192_0_2_3 : CSum F → CKeep F),
    nullary main_cst_7 (constant S_ .f32 0x3F99999A#32),
    unary main_cst_7 main_v14 (broadcastInDim S256x3x192x192 ![] bcast_S_S256x3x192x192 : CSc F → CImg F),
    binary main_v14 main_v9 main_v15 (mulf : CImg F → CImg F → CImg F),
    nullary main_cst_8 (constant S_ .f32 0xBE4CCCCD#32),
    unary main_cst_8 main_v16 (broadcastInDim S256x1x192x192 ![] bcast_S_S256x1x192x192 : CSc F → CKeep F),
    binary main_v16 main_v13 main_v17 (mulf : CKeep F → CKeep F → CKeep F),
    unary main_v17 main_v18 (broadcastInDim S256x3x192x192 ![0, 1, 2, 3] bcast_S256x1x192x192_S256x3x192x192_0_1_2_3 : CKeep F → CImg F),
    binary main_v15 main_v18 main_v19 (addf : CImg F → CImg F → CImg F),
    nullary main_cst_9 (constant S_ .f32 0x00000000#32),
    nullary main_cst_10 (constant S_ .f32 0x3F800000#32),
    TRef.unary (.of main_cst_9) main_call0.v0 id,
    TRef.unary main_call0.v0 main_call0.v1 (broadcastInDim S256x3x192x192 ![] bcast_S_S256x3x192x192),
    TRef.binary main_call0.v1 (.of main_v19) main_call0.v2 maximumf,
    TRef.unary (.of main_cst_10) main_call0.v3 id,
    TRef.unary main_call0.v3 main_call0.v4 (broadcastInDim S256x3x192x192 ![] bcast_S_S256x3x192x192),
    TRef.binary main_call0.v4 main_call0.v2 main_call0.v5 minimumf,
    unary main_cst_0 main_v21 (broadcastInDim S256x3x192x192 ![0, 1, 2, 3] bcast_S1x3x1x1_S256x3x192x192_0_1_2_3 : CTab F → CImg F),
    binary main_v20 main_v21 main_v22 (subf : CImg F → CImg F → CImg F),
    unary main_cst_1 main_v23 (broadcastInDim S256x3x192x192 ![0, 1, 2, 3] bcast_S1x3x1x1_S256x3x192x192_0_1_2_3 : CTab F → CImg F),
    binary main_v22 main_v23 main_v24 (Host.divf : CImg F → CImg F → CImg F) ]

set_option maxRecDepth 2048 in
/-- @main is that straight line: the helper's definition unfolded at its call, both sides are one chain of host steps
    once the sequencing is re-associated. -/
theorem main_eq (c : Dev nD) : main (F := F) c = seq ops := by
  simp only [main, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., unary_bufs_sub ..,
    nullary_bufs_sub .., unary_bufs_sub .., binary_bufs_sub ..,
    nullary_bufs_sub .., unary_bufs_sub .., binary_bufs_sub ..,
    nullary_bufs_sub .., unary_bufs_sub .., binary_bufs_sub ..,
    nullary_bufs_sub .., unary_bufs_sub .., binary_bufs_sub ..,
    unary_bufs_sub .., binary_bufs_sub ..,
    nullary_bufs_sub .., binary_bufs_sub .., unary_bufs_sub ..,
    nullary_bufs_sub .., unary_bufs_sub .., binary_bufs_sub ..,
    nullary_bufs_sub .., unary_bufs_sub .., binary_bufs_sub .., unary_bufs_sub .., binary_bufs_sub ..,
    nullary_bufs_sub .., nullary_bufs_sub ..,
    unary_bufs_sub .., unary_bufs_sub .., binary_bufs_sub .., unary_bufs_sub .., unary_bufs_sub .., binary_bufs_sub ..,
    unary_bufs_sub .., binary_bufs_sub .., unary_bufs_sub .., binary_bufs_sub ..⟩

/-- A scalar constant spread over the whole batch. -/
abbrev splat (w : BitVec 32) : FVec F S256x3x192x192 .f32 :=
  broadcastInDim S256x3x192x192 ![] bcast_S_S256x3x192x192 (constant S_ .f32 w)

/-- Brightness and contrast over the whole batch. -/
abbrev toned (X : FVec F S256x3x192x192 .f32) : FVec F S256x3x192x192 .f32 :=
  addf (mulf (subf (mulf X (splat 0x3F8CCCCD#32)) (splat 0x3F000000#32)) (splat 0x3F666666#32)) (splat 0x3F000000#32)

/-- The luma-weighted sum over the channel axis, kept as a channel axis of extent one. -/
abbrev gray (X : FVec F S256x3x192x192 .f32) (L : FVec F S1x3x1x1 .f32) : FVec F S256x1x192x192 .f32 :=
  broadcastInDim S256x1x192x192 ![0, 2, 3] bcast_S256x192x192_S256x1x192x192_0_2_3
    (Host.reduceAdd (mulf (toned X) (broadcastInDim S256x3x192x192 ![0, 1, 2, 3] bcast_S1x3x1x1_S256x3x192x192_0_1_2_3 L))
      (constant S_ .f32 0x00000000#32) reducesTo_S256x3x192x192_S256x192x192_d1 h_S_)

/-- The saturation blend. -/
abbrev blend (X : FVec F S256x3x192x192 .f32) (L : FVec F S1x3x1x1 .f32) : FVec F S256x3x192x192 .f32 :=
  addf (mulf (splat 0x3F99999A#32) (toned X))
    (broadcastInDim S256x3x192x192 ![0, 1, 2, 3] bcast_S256x1x192x192_S256x3x192x192_0_1_2_3
      (mulf (broadcastInDim S256x1x192x192 ![] bcast_S_S256x1x192x192 (constant S_ .f32 0xBE4CCCCD#32)) (gray X L)))

/-- The pointwise chain after crop and flip, as one function of the cropped and flipped batch `X` and the three
    tables: luma weights `L`, means `M`, deviations `D`. -/
def chain (X : FVec F S256x3x192x192 .f32) (L M D : FVec F S1x3x1x1 .f32) : FVec F S256x3x192x192 .f32 :=
  Host.divf
    (subf (minimumf (splat 0x3F800000#32) (maximumf (splat 0x00000000#32) (blend X L)))
      (broadcastInDim S256x3x192x192 ![0, 1, 2, 3] bcast_S1x3x1x1_S256x3x192x192_0_1_2_3 M))
    (broadcastInDim S256x3x192x192 ![0, 1, 2, 3] bcast_S1x3x1x1_S256x3x192x192_0_1_2_3 D)

/-- The crop and the flip of the argument. -/
abbrev cropFlip (A : FVec F S256x3x224x224 .f32) : FVec F S256x3x192x192 .f32 :=
  Host.reverse [3] (extractStridedSlice S256x3x192x192 ![0, 0, 8, 12] A slices_S256x3x224x224_S256x3x192x192_0_0_8_12)

/-- The three tables: luma weights, means, deviations. -/
abbrev lumaTab : FVec F S1x3x1x1 .f32 := fun i => FloatOps.ofBits .f32 (lit0 (S1x3x1x1.rowMajor i))
abbrev meanTab : FVec F S1x3x1x1 .f32 := fun i => FloatOps.ofBits .f32 (lit1 (S1x3x1x1.rowMajor i))
abbrev stdTab : FVec F S1x3x1x1 .f32 := fun i => FloatOps.ofBits .f32 (lit2 (S1x3x1x1.rowMajor i))

/-- From any memory with zero counters, every weakly fair execution of @main terminates with the result buffer at the
    chain of the cropped and flipped argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
          = chain (cropFlip (m ((c.tc : Thread nD τ).loc main_arg0))) lumaTab meanTab stdTab
      ∧ r.2.mem ((c.tc : Thread nD τ).loc main_arg0) = m ((c.tc : Thread nD τ).loc main_arg0) :=
  (θ_run defs _ _).mono (fun _ h c => ⟨(h c main_v24).trans (by after_results_simp; rfl),
      (h c main_arg0).trans (by after_results_simp)⟩)
    (run_seq scopedRefs_eq scopedSems_eq defs main (fun _ => ops) main_eq (fun _ => ops_sub) m ρ)

end Cert.ReferenceIdeal.RefRun

end
-- ==== Proof.RefBridge.lean ====
/-
  The reference's chain is `G`.

  Read at (n, c, h, w), each host operation of the chain is the extended reals' own operation on its operands there: a
  scalar spread over the batch reads the scalar, a per-channel table broadcast reads the table at channel `c`, the sum
  over the channel axis kept as an axis of extent one reads the plain sum at (n, ·, h, w) (ChannelSum: the host starts
  the sum from zero, and zero plus a sum is the sum), and the keep-axis value broadcast back over the channels reads it
  at channel zero. Composed, that is `pixel` at the index.
-/
import proofs.«143802_j47399259079062_1_alg».proof.Proof.RefRun
import proofs.«143802_j47399259079062_1_alg».proof.Proof.Spec
import proofs.«143802_j47399259079062_1_alg».proof.Proof.ChannelSum
import Idealize.ShloMosaic.Lib.Pipeline.Value
import Idealize.ShloMosaic.Lib.IdealHost
import Idealize.ShloMosaic.Lib.ValueIdx

noncomputable section

open Idealize.ShloMosaic Idealize.ShloMosaic.ValueIdx

namespace Cert.ReferenceIdeal.Bridge

open Cert.ReferenceIdeal Cert.ReferenceIdeal.Gen Cert.ReferenceIdeal.RefRun Cert.Augment

/-- A scalar constant spread over the batch reads the constant's value everywhere. -/
theorem splat_apply (w : BitVec 32) (i : S256x3x192x192.Idx) : splat (F := Ideal) w i = Ideal.ofBits .f32 w :=
  broadcastInDim_scalar_apply _ _ i

/-- Brightness and contrast over the batch, at an index, is `tone` of the batch there. -/
theorem toned_apply (X : FVec Ideal S256x3x192x192 .f32) (i : S256x3x192x192.Idx) :
    toned (F := Ideal) X i = tone (X i) := by
  show (X i * splat (F := Ideal) 0x3F8CCCCD#32 i - splat (F := Ideal) 0x3F000000#32 i) * splat (F := Ideal) 0x3F666666#32 i
      + splat (F := Ideal) 0x3F000000#32 i = _
  simp only [splat_apply]
  rfl

/-- A per-channel table broadcast over the batch reads the table at the index's channel. -/
theorem tab_apply (T : FVec Ideal S1x3x1x1 .f32) (n : Fin 256) (c : Fin 3) (h w : Fin 192) :
    broadcastInDim S256x3x192x192 ![0, 1, 2, 3] bcast_S1x3x1x1_S256x3x192x192_0_1_2_3 T (ix4 n c h w) = T (chan c) := by
  refine broadcastInDim_apply _ _ T (ix4 n c h w) (chan c) fun a => ?_
  match a with
  | ⟨0, _⟩ => rfl
  | ⟨1, _⟩ => rfl
  | ⟨2, _⟩ => rfl
  | ⟨3, _⟩ => rfl

/-- The gray value at (n, h, w): the luma-weighted sum of the toned channel values there. -/
theorem gray_apply (X : FVec Ideal S256x3x192x192 .f32) (L : FVec Ideal S1x3x1x1 .f32) (n : Fin 256) (h w : Fin 192) :
    gray (F := Ideal) X L (ix4 n (0 : Fin 1) h w) = ∑ k : Fin 3, tone (X (ix4 n k h w)) * L (chan k) := by
  refine (broadcastInDim_apply _ _ _ (ix4 n (0 : Fin 1) h w) (ix3 n h w) fun a => ?_).trans ?_
  · match a with
    | ⟨0, _⟩ => rfl
    | ⟨1, _⟩ => rfl
    | ⟨2, _⟩ => rfl
  refine (batch_channel_sum _ _ (by decide) _ n h w).trans (Finset.sum_congr rfl fun k _ => ?_)
  show toned (F := Ideal) X (ix4 n k h w)
      * broadcastInDim S256x3x192x192 ![0, 1, 2, 3] bcast_S1x3x1x1_S256x3x192x192_0_1_2_3 L (ix4 n k h w) = _
  rw [toned_apply, tab_apply]

/-- The saturation blend at (n, c, h, w). -/
theorem blend_apply (X : FVec Ideal S256x3x192x192 .f32) (L : FVec Ideal S1x3x1x1 .f32)
    (n : Fin 256) (c : Fin 3) (h w : Fin 192) :
    blend (F := Ideal) X L (ix4 n c h w)
      = Ideal.ofBits .f32 0x3F99999A#32 * tone (X (ix4 n c h w))
        + Ideal.ofBits .f32 0xBE4CCCCD#32 * ∑ k : Fin 3, tone (X (ix4 n k h w)) * L (chan k) := by
  have hkeep : broadcastInDim S256x3x192x192 ![0, 1, 2, 3] bcast_S256x1x192x192_S256x3x192x192_0_1_2_3
      (mulf (broadcastInDim S256x1x192x192 ![] bcast_S_S256x1x192x192 (constant (F := Ideal) S_ .f32 0xBE4CCCCD#32))
        (gray (F := Ideal) X L)) (ix4 n c h w)
      = Ideal.ofBits .f32 0xBE4CCCCD#32 * ∑ k : Fin 3, tone (X (ix4 n k h w)) * L (chan k) := by
    refine (broadcastInDim_apply _ _ _ (ix4 n c h w) (ix4 n (0 : Fin 1) h w) fun a => ?_).trans ?_
    · match a with
      | ⟨0, _⟩ => rfl
      | ⟨1, _⟩ => rfl
      | ⟨2, _⟩ => rfl
      | ⟨3, _⟩ => rfl
    show broadcastInDim S256x1x192x192 ![] bcast_S_S256x1x192x192 (constant (F := Ideal) S_ .f32 0xBE4CCCCD#32)
          (ix4 n (0 : Fin 1) h w) * gray (F := Ideal) X L (ix4 n (0 : Fin 1) h w) = _
    rw [gray_apply, broadcastInDim_scalar_apply]
    rfl
  show splat (F := Ideal) 0x3F99999A#32 (ix4 n c h w) * toned (F := Ideal) X (ix4 n c h w)
      + broadcastInDim S256x3x192x192 ![0, 1, 2, 3] bcast_S256x1x192x192_S256x3x192x192_0_1_2_3
          (mulf (broadcastInDim S256x1x192x192 ![] bcast_S_S256x1x192x192 (constant (F := Ideal) S_ .f32 0xBE4CCCCD#32))
            (gray (F := Ideal) X L)) (ix4 n c h w) = _
  rw [hkeep, splat_apply, toned_apply]

/-- THE CHAIN IS `G`: at every index the reference's chain is `pixel` of the three channel values there. -/
theorem chain_eq (X : FVec Ideal S256x3x192x192 .f32) (L M D : FVec Ideal S1x3x1x1 .f32) :
    chain (F := Ideal) X L M D = G X L M D := by
  funext i
  obtain ⟨n, c, h, w, rfl⟩ : ∃ (n : Fin 256) (c : Fin 3) (h w : Fin 192), i = ix4 n c h w :=
    ⟨i 0, i 1, i 2, i 3, eq_ix4 i⟩
  show Ideal.div
      (min (splat (F := Ideal) 0x3F800000#32 (ix4 n c h w))
          (max (splat (F := Ideal) 0x00000000#32 (ix4 n c h w)) (blend (F := Ideal) X L (ix4 n c h w)))
        - broadcastInDim S256x3x192x192 ![0, 1, 2, 3] bcast_S1x3x1x1_S256x3x192x192_0_1_2_3 M (ix4 n c h w))
      (broadcastInDim S256x3x192x192 ![0, 1, 2, 3] bcast_S1x3x1x1_S256x3x192x192_0_1_2_3 D (ix4 n c h w)) = _
  rw [blend_apply, tab_apply, tab_apply, splat_apply, splat_apply]
  rfl

end Cert.ReferenceIdeal.Bridge

end
-- ==== Proof.lean ====
/-
  The image augmentation kernel against its jnp reference, over the extended reals.

  Both programs crop the [256, 3, 224, 224] argument to rows 8..199 and columns 12..203 and reverse the column axis, on
  the host. The kernel then runs one grid point per eight samples: it loads the slab and three per-channel tables and
  stores, at every slab index, the value

      ( min 1 (max 0 ( 1.2 · y_c + (−0.2) · Σ_k y_k · luma_k )) − mean_c ) / std_c,     y = (x · 1.1 − 0.5) · 0.9 + 0.5,

  where x_k are the three channel values at the index's sample, row and column. The reference applies the same
  operations to the whole batch, the clamp through an outlined helper, the channel sum as a host reduction from zero.
  Every float constant is the same word on both sides, so none is evaluated. The two sums are the same three terms:
  over the extended reals addition is associative and commutative at every value, and the host's initial zero adds
  nothing, so no finiteness of the input is used. `Cert.Augment.G` (Spec) is that function of the cropped and flipped
  batch; the kernel's slabs are slabs of it and cover the result (KernelBlock, KernelRun), and the reference's chain
  is it index by index (RefRun, RefBridge). The idealized kernel is the printed kernel read at the ideal values with no
  rewrite, so there is nothing to preserve.
-/
import proofs.«143802_j47399259079062_1_alg».proof.Defs
import proofs.«143802_j47399259079062_1_alg».proof.Proof.Gen.Kernel
import proofs.«143802_j47399259079062_1_alg».proof.Proof.Gen.Kernel.Skeleton
import proofs.«143802_j47399259079062_1_alg».proof.Proof.Gen.Kernel.Launch
import proofs.«143802_j47399259079062_1_alg».proof.Proof.Gen.Kernel.Points
import proofs.«143802_j47399259079062_1_alg».proof.Proof.Gen.Kernel.Frame
import proofs.«143802_j47399259079062_1_alg».proof.Proof.Gen.KernelIdeal
import proofs.«143802_j47399259079062_1_alg».proof.Proof.Gen.KernelIdeal.Skeleton
import proofs.«143802_j47399259079062_1_alg».proof.Proof.Gen.KernelIdeal.Launch
import proofs.«143802_j47399259079062_1_alg».proof.Proof.Gen.KernelIdeal.Points
import proofs.«143802_j47399259079062_1_alg».proof.Proof.Gen.KernelIdeal.Frame
import proofs.«143802_j47399259079062_1_alg».proof.Proof.Gen.KernelIdeal.Value
import proofs.«143802_j47399259079062_1_alg».proof.Proof.Gen.ReferenceIdeal
import proofs.«143802_j47399259079062_1_alg».proof.Proof.Gen.Pre_finite_inputs
import proofs.«143802_j47399259079062_1_alg».proof.Proof.KernelRun
import proofs.«143802_j47399259079062_1_alg».proof.Proof.RefRun
import proofs.«143802_j47399259079062_1_alg».proof.Proof.RefBridge
import Idealize.ShloMosaic.Adequacy
import Idealize.ShloMosaic.Init

noncomputable section

namespace Cert.Proof

open Idealize.ShloMosaic Idealize.SL.Sem

/-! ## The two programs carry the same three tables -/

/-- The luma weights: the reference's first table is the kernel's third, word for word. -/
theorem luma_words : ∀ x : Fin 3, Cert.ReferenceIdeal.lit0 x = Cert.KernelIdeal.lit2 x := by decide
/-- The means: the reference's second table is the kernel's first. -/
theorem mean_words : ∀ x : Fin 3, Cert.ReferenceIdeal.lit1 x = Cert.KernelIdeal.lit0 x := by decide
/-- The deviations: the reference's third table is the kernel's second. -/
theorem std_words : ∀ x : Fin 3, Cert.ReferenceIdeal.lit2 x = Cert.KernelIdeal.lit1 x := by decide

/-- So the three tables are the same arrays of extended reals on both sides. -/
theorem luma_tab : Cert.ReferenceIdeal.RefRun.lumaTab (F := Ideal)
    = fun i => FloatOps.ofBits (F := Ideal) .f32 (Cert.KernelIdeal.lit2 (Cert.KernelIdeal.S1x3x1x1.rowMajor i)) :=
  funext fun i => congrArg (FloatOps.ofBits (F := Ideal) .f32) (luma_words _)
theorem mean_tab : Cert.ReferenceIdeal.RefRun.meanTab (F := Ideal)
    = fun i => FloatOps.ofBits (F := Ideal) .f32 (Cert.KernelIdeal.lit0 (Cert.KernelIdeal.S1x3x1x1.rowMajor i)) :=
  funext fun i => congrArg (FloatOps.ofBits (F := Ideal) .f32) (mean_words _)
theorem std_tab : Cert.ReferenceIdeal.RefRun.stdTab (F := Ideal)
    = fun i => FloatOps.ofBits (F := Ideal) .f32 (Cert.KernelIdeal.lit1 (Cert.KernelIdeal.S1x3x1x1.rowMajor i)) :=
  funext fun i => congrArg (FloatOps.ofBits (F := Ideal) .f32) (std_words _)

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- At the ideal values the kernel's result array ends at `G` of the flipped crop of the argument and the tables (its
    run), and the reference's at its chain of the same (its run), which is `G` of them; the arguments agree and the
    tables are the same words. -/
theorem algebraic : Cert.algebraic_KernelIdeal_ReferenceIdeal := by
  intro m ρ m' ρ' _ hagree
  refine ⟨_, Cert.KernelIdeal.Slab.run m ρ, ?_⟩
  refine (θ_run Cert.ReferenceIdeal.defs _ _).mono (fun _ h c => ⟨(h c).1.trans ?_, (h c).2⟩)
    (Cert.ReferenceIdeal.RefRun.run (F := Ideal) m' ρ')
  rw [hagree c, Cert.ReferenceIdeal.Bridge.chain_eq, luma_tab, mean_tab, std_tab]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
